-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256x64 .f32) (main_arg6 : FVec F S256x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S256x256 : Shape := ⟨2, ![256, 256]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S600000x256 : Shape := ⟨2, ![600000, 256]⟩
abbrev S512x64 : Shape := ⟨2, ![512, 64]⟩
abbrev S1x64 : Shape := ⟨2, ![1, 64]⟩
abbrev S50000x64 : Shape := ⟨2, ![50000, 64]⟩
abbrev S2000x64 : Shape := ⟨2, ![2000, 64]⟩
abbrev S2000x512 : Shape := ⟨2, ![2000, 512]⟩

abbrev nBuf : Space → Nat
  | .hbm => 52
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S256x256, .f32⟩
  | .hbm, ⟨33, _⟩ => ⟨S1x256, .f32⟩
  | .hbm, ⟨34, _⟩ => ⟨S50000x256, .bf16⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x256, .bf16⟩
  | .hbm, ⟨44, _⟩ => ⟨S600000x256, .f32⟩
  | .hbm, ⟨45, _⟩ => ⟨S_, .f32⟩
  | .hbm, ⟨46, _⟩ => ⟨S50000x256, .f32⟩
  | .hbm, ⟨47, _⟩ => ⟨S600000x1, .i32⟩
  | .hbm, ⟨48, _⟩ => ⟨S50000x256, .f32⟩
  | .hbm, ⟨49, _⟩ => ⟨S512x64, .f32⟩
  | .hbm, ⟨50, _⟩ => ⟨S1x64, .f32⟩
  | .hbm, ⟨51, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S256x256, .f32⟩
  | .local _ .vmem, ⟨7, _⟩ => ⟨S1x256, .f32⟩
  | .local _ .vmem, ⟨8, _⟩ => ⟨S2000x256, .bf16⟩
  | .local _ .vmem, ⟨9, _⟩ => ⟨S2000x256, .bf16⟩
  | .local _ .vmem, ⟨10, _⟩ => ⟨S2000x256, .f32⟩
  | .local _ .vmem, ⟨11, _⟩ => ⟨S2000x256, .f32⟩
  | .local _ .vmem, ⟨12, _⟩ => ⟨S2000x256, .bf16⟩
  | .local _ .vmem, ⟨13, _⟩ => ⟨S2000x256, .bf16⟩
  | .local _ .vmem, ⟨14, _⟩ => ⟨S2000x1, .f32⟩
  | .local _ .vmem, ⟨15, _⟩ => ⟨S2000x1, .f32⟩
  | .local _ .vmem, ⟨16, _⟩ => ⟨S512x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  concatenates_S128x256_S128x256_S256x256_d0 : Shape.Concatenates [S128x256, S128x256] S256x256 0
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  concatenates_S256x64_S256x64_S512x64_d0 : Shape.Concatenates [S256x64, S256x64] S512x64 0
  shapeCasts_S64_S1x64 : S64.ShapeCasts S1x64
  shapeCasts_S2000x256_S2000x256 : S2000x256.ShapeCasts S2000x256
  broadcasts_S2000x1_S2000x256 : S2000x1.Broadcasts S2000x256
  concatenates_S2000x256_S2000x256_S2000x512_d1 : Shape.Concatenates [S2000x256, S2000x256] S2000x512 1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x256_S256x256_S2000x256_1_0_0_1_n_n_wf : DotDims.WF S2000x256 S256x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x512_S512x64_S2000x64_1_0_0_1_n_n_wf : DotDims.WF S2000x512 S512x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S512x64.size a
  hwx1_3 : ∀ i : grid1.Coords, EltTy.bits .f32 = 32 ∨ (Rect.block (s := S512x64) S512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S512x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S1x600000, .i32⟩
  | .hbm, ⟨47, _⟩ => ⟨S600000, .i32⟩
  | .hbm, ⟨48, _⟩ => ⟨S1x600000, .i32⟩
  | .hbm, ⟨49, _⟩ => ⟨S600000, .i32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x256, .f32⟩
  | .hbm, ⟨59, _⟩ => ⟨S_, .f32⟩
  | .hbm, ⟨60, _⟩ => ⟨S50000x256, .f32⟩
  | .hbm, ⟨61, _⟩ => ⟨S600000x1, .i32⟩
  | .hbm, ⟨62, _⟩ => ⟨S50000x256, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S50000, .f32⟩
  | .hbm, ⟨67, _⟩ => ⟨S600000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x64_S50000x64_1_0_0_1_n_n_wf : DotDims.WF S50000x256 S256x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The idealized kernel's run with its RESULT array named.

  The kernel's program is four stretches: host operations, the first dense layer's region, host operations, the second
  dense layer's region.  The buffer contents at the four boundaries are a fold from the launch memory; after the last
  region every unscoped buffer holds that fold's last stage.  The frame proof reads only the eight argument arrays
  off that last stage; here the same launch theorem is applied once more and the result array (the second region's
  output window) is read off it as well: every weakly fair execution terminates, nothing faults, the result array holds
  the last stage's contents at its buffer, and the arguments are unchanged.
-/
import proofs.«174680_j81793357185247_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents the
    fold through the four stretches leaves at its buffer, and the eight arguments end as launched. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibSage.lean ====
/-
  General facts used for a dense layer whose two matrix products are fused into one.

  * Two matrices of a and b rows stacked one above the other read, at a row, the matrix whose span of rows holds it, at
    the row less the rows above it (`concatRows2_apply_0`, `concatRows2_apply_1`): the row counterpart of two matrices
    laid side by side.
  * Over any commutative additive monoid, a sum over n = a + b positions is the sum over the first a positions plus the
    sum over the last b (`sum_split`).
  * THE BLOCK PRODUCT: at the extended reals, if a row vector of n = a + b entries is [u | v] and a column vector of n
    entries is [s ; t] stacked, then Σ_{k<n} [u|v](k) · [s;t](k) = Σ_{k<a} u(k) · s(k) + Σ_{k<b} v(k) · t(k)
    (`sum_blocks`, stated over the entries' values at the split positions).  Only the monoid structure of addition
    is used, so no entry needs to be finite.
  Imports only the library.
-/
import Idealize.ShloMosaic.PureOps.Ideal.Laws
import Idealize.ShloMosaic.Lib.ValueIdx
import Idealize.ShloMosaic.Lib.Pipeline.Value

noncomputable section

open scoped BigOperators

namespace Cert.LibSage

open Idealize.ShloMosaic Idealize.ShloMosaic.ValueIdx

/-! ## Two matrices stacked -/

section ConcatRows2
variable {α : Type} {C a b n : Nat}
  (x1 : (⟨2, ![a, C]⟩ : Shape).Idx → α) (x2 : (⟨2, ![b, C]⟩ : Shape).Idx → α)
  (h : Shape.Concatenates [(⟨2, ![a, C]⟩ : Shape), ⟨2, ![b, C]⟩] ⟨2, ![n, C]⟩ 0)

/-- Two matrices of a and b rows stacked read, at a row p below a, the first at row p. -/
theorem concatRows2_apply_0 (p : Fin n) (q : Fin C) (p' : Fin a) (hp : p'.val = p.val) :
    concatenate ⟨2, ![n, C]⟩ 0 [⟨⟨2, ![a, C]⟩, x1⟩, ⟨⟨2, ![b, C]⟩, x2⟩] h (ix2 p q) = x1 (ix2 p' q) :=
  concatenate_apply_piece (t := ⟨2, ![n, C]⟩) (0 : Fin 2) [⟨⟨2, ![a, C]⟩, x1⟩, ⟨⟨2, ![b, C]⟩, x2⟩] h (ix2 p q) 0 (by simp)
    ⟨2, ![a, C]⟩ x1 rfl rfl 0 rfl (ix2 p' q)
    (fun d hd => by
      match d with
      | ⟨0, _⟩ => exact absurd rfl hd
      | ⟨1, _⟩ => rfl)
    (by show 0 + p'.val = p.val; omega)

/-- At a row a + p', the second at row p'. -/
theorem concatRows2_apply_1 (p : Fin n) (q : Fin C) (p' : Fin b) (hp : a + p'.val = p.val) :
    concatenate ⟨2, ![n, C]⟩ 0 [⟨⟨2, ![a, C]⟩, x1⟩, ⟨⟨2, ![b, C]⟩, x2⟩] h (ix2 p q) = x2 (ix2 p' q) :=
  concatenate_apply_piece (t := ⟨2, ![n, C]⟩) (0 : Fin 2) [⟨⟨2, ![a, C]⟩, x1⟩, ⟨⟨2, ![b, C]⟩, x2⟩] h (ix2 p q) 1 (by simp)
    ⟨2, ![b, C]⟩ x2 rfl rfl a (by simp) (ix2 p' q)
    (fun d hd => by
      match d with
      | ⟨0, _⟩ => exact absurd rfl hd
      | ⟨1, _⟩ => rfl)
    (by show a + p'.val = p.val; omega)

end ConcatRows2

/-! ## A sum over a + b positions -/

/-- A sum over n = a + b positions is the sum over the first a plus the sum over the last b. -/
theorem sum_split {M : Type*} [AddCommMonoid M] {a b n : Nat} (hn : a + b = n) (f : Fin n → M) :
    ∑ k : Fin n, f k = ∑ k : Fin a, f ⟨k.val, by omega⟩ + ∑ k : Fin b, f ⟨a + k.val, by omega⟩ := by
  subst hn
  rw [Fin.sum_univ_add]
  rfl

/-- The block product: a sum of products over n = a + b positions whose left factors are u on the first a positions
    and v on the last b, and whose right factors are s and t there, is Σ u · s + Σ v · t. -/
theorem sum_blocks {a b n : Nat} (hn : a + b = n) (l r : Fin n → EReal) (u s : Fin a → EReal) (v t : Fin b → EReal)
    (hu : ∀ k : Fin a, l ⟨k.val, by omega⟩ = u k) (hs : ∀ k : Fin a, r ⟨k.val, by omega⟩ = s k)
    (hv : ∀ k : Fin b, l ⟨a + k.val, by omega⟩ = v k) (ht : ∀ k : Fin b, r ⟨a + k.val, by omega⟩ = t k) :
    ∑ k : Fin n, l k * r k = ∑ k : Fin a, u k * s k + ∑ k : Fin b, v k * t k := by
  rw [sum_split hn]
  congr 1
  · exact Finset.sum_congr rfl fun k _ => by rw [hu k, hs k]
  · exact Finset.sum_congr rfl fun k _ => by rw [hv k, ht k]

end Cert.LibSage

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.SageSpec.lean ====
/-
  One layer of the network the two programs compute, as a function on the extended reals, at any extents.

  A layer takes the per-node sums `S` of the neighbours' features (N × K), the nodes' own features `X` (N × K), the
  per-node neighbour counts `cnt` (N), the neighbour weights `Wl` and root weights `Wr` (K × J) and the bias `b` (J):
      out(p, q) = Σ_k (S(p,k) / max(cnt(p), 1)) · Wl(k, q) + Σ_k X(p,k) · Wr(k, q) + b(q)
  (`sageAt`); the first layer of the network then takes the maximum with 0.  One program computes the two sums as two
  matrix products.  The other lays S / max(cnt, 1) beside X, stacks Wl above Wr into one (K + K) × J matrix `W`, keeps
  the count as a column `C` and the bias as a row `B`, and computes ONE product over K + K positions, which splits at
  position K (`fusedAt`).  With the count laid as a column, the weights stacked and the bias laid as a row the two
  are one function (`fusedAt_eq`): the stacked matrix read at row k < K is Wl's row k, at row K + k it is Wr's row k.
  A block of rows of the fused form is the fused form of the blocks (`fusedAt_rows`).
  Only that addition is a commutative monoid is used, so nothing here needs an entry to be finite.  The constant 1
  stays the word both programs print (0x3F800000): the same word on both sides is never evaluated.
-/
import Idealize.ShloMosaic.PureOps.Ideal.Laws
import Idealize.ShloMosaic.Lib.ValueIdx
import Idealize.ShloMosaic.Lib.ValueLayout
import Idealize.ShloMosaic.Lib.Pipeline.Value
import proofs.«174680_j81793357185247_2_alg».proof.Proof.LibBcast
import proofs.«174680_j81793357185247_2_alg».proof.Proof.LibSage

noncomputable section

open scoped BigOperators

namespace Cert.Sage

open Idealize.ShloMosaic Idealize.ShloMosaic.ValueIdx

/-- An n × k array of extended reals. -/
abbrev Mat (n k : Nat) : Type := (⟨2, ![n, k]⟩ : Shape).Idx → EReal
/-- A vector of n extended reals. -/
abbrev Vec (n : Nat) : Type := (⟨1, ![n]⟩ : Shape).Idx → EReal

/-- Entry (p, q) of a layer: the mean of the neighbours' features (their sum `S` over max(count, 1)) times the neighbour
    weights, plus the node's own features times the root weights, plus the bias. -/
def sageAt {N K J : Nat} (S X : Mat N K) (cnt : Vec N) (Wl Wr : Mat K J) (b : Vec J) (p : Fin N) (q : Fin J) : EReal :=
  (∑ k : Fin K, Ideal.div (S (ix2 p k)) (max (cnt (ix1 p)) (Ideal.ofBits .f32 0x3F800000#32)) * Wl (ix2 k q)
      + ∑ k : Fin K, X (ix2 p k) * Wr (ix2 k q))
    + b (ix1 q)

/-- The same entry from the FUSED operands: the count as a column `C`, the two weight matrices stacked as `W`
    (neighbour weights above root weights, K + K = K2 rows), the bias as a row `B`. -/
def fusedAt {N K K2 J : Nat} (hK : K + K = K2) (S X : Mat N K) (C : Mat N 1) (W : Mat K2 J) (B : Mat 1 J)
    (p : Fin N) (q : Fin J) : EReal :=
  (∑ k : Fin K, Ideal.div (S (ix2 p k)) (max (C (ix2 p (0 : Fin 1))) (Ideal.ofBits .f32 0x3F800000#32))
        * W (ix2 (⟨k.val, by omega⟩ : Fin K2) q)
      + ∑ k : Fin K, X (ix2 p k) * W (ix2 (⟨K + k.val, by omega⟩ : Fin K2) q))
    + B (ix2 (0 : Fin 1) q)

/-- With the count laid as a column, the weights stacked and the bias laid as a row, the fused form is the layer. -/
theorem fusedAt_eq {N K K2 J : Nat} (hK : K + K = K2) (S X : Mat N K) (cnt : Vec N) (Wl Wr : Mat K J) (b : Vec J)
    (hc : (⟨1, ![N]⟩ : Shape).BroadcastsInDim ⟨2, ![N, 1]⟩ ![0])
    (hw : Shape.Concatenates [(⟨2, ![K, J]⟩ : Shape), ⟨2, ![K, J]⟩] ⟨2, ![K2, J]⟩ 0)
    (hb : (⟨1, ![J]⟩ : Shape).ShapeCasts ⟨2, ![1, J]⟩) (p : Fin N) (q : Fin J) :
    fusedAt hK S X (broadcastInDim ⟨2, ![N, 1]⟩ ![0] hc cnt)
        (concatenate ⟨2, ![K2, J]⟩ 0 [⟨⟨2, ![K, J]⟩, Wl⟩, ⟨⟨2, ![K, J]⟩, Wr⟩] hw)
        (shapeCast ⟨2, ![1, J]⟩ b hb) p q
      = sageAt S X cnt Wl Wr b p q := by
  unfold fusedAt sageAt
  have e1 : ∀ k : Fin K, concatenate ⟨2, ![K2, J]⟩ 0 [⟨⟨2, ![K, J]⟩, Wl⟩, ⟨⟨2, ![K, J]⟩, Wr⟩] hw
      (ix2 (⟨k.val, by omega⟩ : Fin K2) q) = Wl (ix2 k q) := fun k =>
    Cert.LibSage.concatRows2_apply_0 Wl Wr hw _ q k rfl
  have e2 : ∀ k : Fin K, concatenate ⟨2, ![K2, J]⟩ 0 [⟨⟨2, ![K, J]⟩, Wl⟩, ⟨⟨2, ![K, J]⟩, Wr⟩] hw
      (ix2 (⟨K + k.val, by omega⟩ : Fin K2) q) = Wr (ix2 k q) := fun k =>
    Cert.LibSage.concatRows2_apply_1 Wl Wr hw _ q k rfl
  have e3 : broadcastInDim ⟨2, ![N, 1]⟩ ![0] hc cnt (ix2 p (0 : Fin 1)) = cnt (ix1 p) :=
    Cert.LibBcast.bcastVecCol_apply cnt hc p 0
  have e4 : shapeCast ⟨2, ![1, J]⟩ b hb (ix2 (0 : Fin 1) q) = b (ix1 q) :=
    shapeCast_a_1a_apply b hb 0 q
  simp only [e1, e2, e3, e4]

/-- A block of rows: if the n-row operands `s`, `x`, `c` are rows off … off + n − 1 of the N-row operands, the fused form
    of the block at row p is the fused form of the whole at row off + p. -/
theorem fusedAt_rows {n N K K2 J : Nat} (hK : K + K = K2) (S X : Mat N K) (C : Mat N 1) (W : Mat K2 J) (B : Mat 1 J)
    (s x : Mat n K) (c : Mat n 1) (off : Nat) (p : Fin n) (P : Fin N) (hP : P.val = off + p.val)
    (hs : ∀ k : Fin K, s (ix2 p k) = S (ix2 P k)) (hx : ∀ k : Fin K, x (ix2 p k) = X (ix2 P k))
    (hc : c (ix2 p (0 : Fin 1)) = C (ix2 P (0 : Fin 1))) (q : Fin J) :
    fusedAt hK s x c W B p q = fusedAt hK S X C W B P q := by
  unfold fusedAt
  simp only [hs, hx, hc]

end Cert.Sage

end
-- ==== Proof.KernelBody.lean ====
import proofs.«174680_j81793357185247_2_alg».proof.Proof.Gen.KernelIdeal.Skeleton
import proofs.«174680_j81793357185247_2_alg».proof.Proof.LibRowOps
import proofs.«174680_j81793357185247_2_alg».proof.Proof.LibMatmulZero
import proofs.«174680_j81793357185247_2_alg».proof.Proof.LibSage
import proofs.«174680_j81793357185247_2_alg».proof.Proof.SageSpec
import Idealize.ShloMosaic.Lib.ValueLayout

noncomputable section

open scoped BigOperators

/-!
  What the two dense-layer bodies compute, entry by entry, at the extended reals.

  Each body takes a block of 2000 rows: the neighbour sums `s` (2000 × K), the node features `x` (2000 × K), the
  neighbour counts `c` (2000 × 1), the stacked weights `w` (2K × J: the neighbour weights above the root weights) and
  the bias `b` (1 × J).  It divides every row of `s` by max(c, 1), lays the quotient beside `x` as one 2000 × 2K matrix,
  multiplies by `w` and adds `b`; the first layer also takes the maximum with 0.  A change of float format is the
  identity at the extended reals.  Since the left factor is [s / max(c,1) | x] and the right factor's rows are the two
  weight blocks stacked, the product's entry (p, q) splits at position K of the contraction:
      Σ_{k<K} (s(p,k) / max(c(p),1)) · w(k, q)  +  Σ_{k<K} x(p,k) · w(K + k, q).
-/

namespace Cert.KernelIdeal.Body

open Cert.KernelIdeal Cert.KernelIdeal.Gen
open Idealize.ShloMosaic Idealize.ShloMosaic.ValueIdx

/-- Result axis 0 of the first layer's product is the left operand's axis 0. -/
theorem d0_lhs0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- Result axis 1 of the first layer's product is the right operand's axis 1. -/
theorem d0_rhs1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- Result axis 0 of the second layer's product is the left operand's axis 0. -/
theorem d1_lhs0 (i : S2000x64.Idx) (c : dot_S2000x512_S512x64_S2000x64_1_0_0_1_n_n.contr.Idx) :
    (dot_S2000x512_S512x64_S2000x64_1_0_0_1_n_n.lhsIdx i c 0).val = (i 0).val := by
  unfold DotDims.lhsIdx
  rw [dif_neg (show ¬(0 : Fin S2000x512.rank) ∈ dot_S2000x512_S512x64_S2000x64_1_0_0_1_n_n.lhsBatch by decide),
    dif_pos (show (0 : Fin S2000x512.rank) ∈ dot_S2000x512_S512x64_S2000x64_1_0_0_1_n_n.lhsNonContracting by decide)]
  rfl

/-- Result axis 1 of the second layer's product is the right operand's axis 1. -/
theorem d1_rhs1 (i : S2000x64.Idx) (c : dot_S2000x512_S512x64_S2000x64_1_0_0_1_n_n.contr.Idx) :
    (dot_S2000x512_S512x64_S2000x64_1_0_0_1_n_n.rhsIdx i c 1).val = (i 1).val := by
  unfold DotDims.rhsIdx
  rw [dif_neg (show ¬(1 : Fin S512x64.rank) ∈ dot_S2000x512_S512x64_S2000x64_1_0_0_1_n_n.rhsBatch by decide),
    dif_pos (show (1 : Fin S512x64.rank) ∈ dot_S2000x512_S512x64_S2000x64_1_0_0_1_n_n.rhsNonContracting by decide)]
  rfl

/-- The first layer's stored value at entry (p, q) of a block: relu of the split product plus the bias. -/
theorem pay0_apply (c : FVec Ideal S2000x1 .f32) (s x : FVec Ideal S2000x128 .f32) (w : FVec Ideal S256x256 .f32)
    (b : FVec Ideal S1x256 .f32) (p : Fin 2000) (q : Fin 256) :
    k0_pay1 (F := Ideal) c s x w b (ix2 p q)
      = max ((∑ k : Fin 128, Ideal.div (s (ix2 p k)) (max (c (ix2 p (0 : Fin 1))) (Ideal.ofBits .f32 0x3F800000#32))
                * w (ix2 (⟨k.val, by omega⟩ : Fin 256) q)
              + ∑ k : Fin 128, x (ix2 p k) * w (ix2 (⟨128 + k.val, by omega⟩ : Fin 256) q))
            + b (ix2 (0 : Fin 1) q)) (Ideal.ofBits .f32 0x00000000#32) := by
  unfold k0_pay1
  dsimp only [truncf_apply, maximumf_apply, addf_apply, broadcast_apply]
  refine congrArg₂ max (congrArg₂ (· + ·) ?_ ?_) rfl
  · refine (Cert.LibMatmulZero.matmul_zero_ix2 dot_S2000x256_S256x256_S2000x256_1_0_0_1_n_n rfl rfl rfl rfl
      d0_lhs0 d0_rhs1 none _ _ p q).trans ?_
    refine Cert.LibSage.sum_blocks (a := 128) (b := 128) (by norm_num) _ _ _ _ _ _
      (fun k => ?_) (fun k => ?_) (fun k => ?_) (fun k => ?_)
    · refine (Cert.LibRowOps.concat2_apply_0 _ _ _ p (⟨k.val, by omega⟩ : Fin 256) k rfl).trans ?_
      exact congrArg₂ Ideal.div (congrFun (shapeCast_self s _) _)
        ((Cert.LibRowOps.broadcastTo_a1_ab_apply _ _ p k).trans
          (congrArg₂ max (congrFun (shapeCast_self c _) _) rfl))
    · exact congrFun (shapeCast_self w _) _
    · exact Cert.LibRowOps.concat2_apply_1 _ _ _ p (⟨128 + k.val, by omega⟩ : Fin 256) k rfl
    · exact congrFun (shapeCast_self w _) _
  · exact (broadcastTo_1b_ab_apply _ _ p q).trans (congrFun (shapeCast_self b _) _)

/-- The second layer's stored value at entry (p, q) of a block: the split product plus the bias. -/
theorem pay1_apply (c : FVec Ideal S2000x1 .f32) (s : FVec Ideal S2000x256 .f32) (x : FVec Ideal S2000x256 .bf16)
    (w : FVec Ideal S512x64 .f32) (b : FVec Ideal S1x64 .f32) (p : Fin 2000) (q : Fin 64) :
    k1_pay1 (F := Ideal) c s x w b (ix2 p q)
      = (∑ k : Fin 256, Ideal.div (s (ix2 p k)) (max (c (ix2 p (0 : Fin 1))) (Ideal.ofBits .f32 0x3F800000#32))
                * w (ix2 (⟨k.val, by omega⟩ : Fin 512) q)
              + ∑ k : Fin 256, x (ix2 p k) * w (ix2 (⟨256 + k.val, by omega⟩ : Fin 512) q))
            + b (ix2 (0 : Fin 1) q) := by
  unfold k1_pay1
  dsimp only [truncf_apply, maximumf_apply, addf_apply, broadcast_apply]
  refine congrArg₂ (· + ·) ?_ ?_
  · refine (Cert.LibMatmulZero.matmul_zero_ix2 dot_S2000x512_S512x64_S2000x64_1_0_0_1_n_n rfl rfl rfl rfl
      d1_lhs0 d1_rhs1 none _ _ p q).trans ?_
    refine Cert.LibSage.sum_blocks (a := 256) (b := 256) (by norm_num) _ _ _ _ _ _
      (fun k => ?_) (fun k => ?_) (fun k => ?_) (fun k => ?_)
    · refine (Cert.LibRowOps.concat2_apply_0 _ _ _ p (⟨k.val, by omega⟩ : Fin 512) k rfl).trans ?_
      exact congrArg₂ Ideal.div (congrFun (shapeCast_self s _) _)
        ((Cert.LibRowOps.broadcastTo_a1_ab_apply _ _ p k).trans
          (congrArg₂ max (congrFun (shapeCast_self c _) _) rfl))
    · exact congrFun (shapeCast_self w _) _
    · exact (Cert.LibRowOps.concat2_apply_1 _ _ _ p (⟨256 + k.val, by omega⟩ : Fin 512) k rfl).trans
        (congrFun (shapeCast_self x _) _)
    · exact congrFun (shapeCast_self w _) _
  · exact (broadcastTo_1b_ab_apply _ _ p q).trans (congrFun (shapeCast_self b _) _)

/-! ## A block's stored value against the whole arrays

If the blocks a grid point loads are rows off … off + 1999 of the whole arrays (the weights and the bias being whole at
every point), the value the point stores at an entry of its block is the fused layer of the WHOLE arrays at the entry
`off` rows further down. -/

open Cert.Sage in
/-- The first layer's block against the whole arrays. -/
theorem blockval0 (S X : Mat 50000 128) (C : Mat 50000 1) (W : Mat 256 256) (B : Mat 1 256)
    (c : FVec Ideal S2000x1 .f32) (s x : FVec Ideal S2000x128 .f32) (w : FVec Ideal S256x256 .f32)
    (b : FVec Ideal S1x256 .f32) (off : Nat)
    (hs : ∀ (p : Fin 2000) (k : Fin 128) (P : Fin 50000), P.val = off + p.val → s (ix2 p k) = S (ix2 P k))
    (hx : ∀ (p : Fin 2000) (k : Fin 128) (P : Fin 50000), P.val = off + p.val → x (ix2 p k) = X (ix2 P k))
    (hc : ∀ (p : Fin 2000) (P : Fin 50000), P.val = off + p.val → c (ix2 p (0 : Fin 1)) = C (ix2 P (0 : Fin 1)))
    (hw : w = W) (hb : b = B)
    (j : S2000x256.Idx) (P : Fin 50000) (Q : Fin 256) (hP : P.val = off + (j 0).val) (hQ : Q.val = (j 1).val) :
    k0_pay1 (F := Ideal) c s x w b j
      = max (fusedAt (by norm_num : 128 + 128 = 256) S X C W B P Q) (Ideal.ofBits .f32 0x00000000#32) := by
  obtain ⟨p, q, rfl⟩ : ∃ (p : Fin 2000) (q : Fin 256), j = ix2 p q := ⟨j 0, j 1, eq_ix2 j⟩
  obtain rfl : Q = q := Fin.ext hQ
  subst hw hb
  refine (pay0_apply c s x w b p Q).trans (congrArg (max · (Ideal.ofBits .f32 0x00000000#32)) ?_)
  exact fusedAt_rows (by norm_num : 128 + 128 = 256) S X C w b s x c off p P hP
    (fun k => hs p k P hP) (fun k => hx p k P hP) (hc p P hP) Q

open Cert.Sage in
/-- The second layer's block against the whole arrays. -/
theorem blockval1 (S X : Mat 50000 256) (C : Mat 50000 1) (W : Mat 512 64) (B : Mat 1 64)
    (c : FVec Ideal S2000x1 .f32) (s : FVec Ideal S2000x256 .f32) (x : FVec Ideal S2000x256 .bf16)
    (w : FVec Ideal S512x64 .f32) (b : FVec Ideal S1x64 .f32) (off : Nat)
    (hs : ∀ (p : Fin 2000) (k : Fin 256) (P : Fin 50000), P.val = off + p.val → s (ix2 p k) = S (ix2 P k))
    (hx : ∀ (p : Fin 2000) (k : Fin 256) (P : Fin 50000), P.val = off + p.val → x (ix2 p k) = X (ix2 P k))
    (hc : ∀ (p : Fin 2000) (P : Fin 50000), P.val = off + p.val → c (ix2 p (0 : Fin 1)) = C (ix2 P (0 : Fin 1)))
    (hw : w = W) (hb : b = B)
    (j : S2000x64.Idx) (P : Fin 50000) (Q : Fin 64) (hP : P.val = off + (j 0).val) (hQ : Q.val = (j 1).val) :
    k1_pay1 (F := Ideal) c s x w b j = fusedAt (by norm_num : 256 + 256 = 512) S X C W B P Q := by
  obtain ⟨p, q, rfl⟩ : ∃ (p : Fin 2000) (q : Fin 64), j = ix2 p q := ⟨j 0, j 1, eq_ix2 j⟩
  obtain rfl : Q = q := Fin.ext hQ
  subst hw hb
  refine (pay1_apply c s x w b p Q).trans ?_
  exact fusedAt_rows (by norm_num : 256 + 256 = 512) S X C w b s x c off p P hP
    (fun k => hs p k P hP) (fun k => hx p k P hP) (hc p P hP) Q

end Cert.KernelIdeal.Body

end
-- ==== Proof.KernelArrays.lean ====
/-
  From blocks to arrays: what each of the two regions leaves in its output array.

  Each region's grid has 25 points; point t loads rows 2000·t … 2000·t + 1999 of the neighbour sums, of the features and
  of the count column, and the stacked weights and the bias row whole, and writes rows 2000·t … 2000·t + 1999 of the
  output.  The 25 row blocks tile the 50000 rows, so after the region the output array is ONE function of the arrays
  the region found: the fused layer of the whole arrays (the first region's also cut off below at 0).  Everything here
  is stated for ANY contents `V` of the buffers at the region's entry.
-/
import proofs.«174680_j81793357185247_2_alg».proof.Proof.Gen.KernelIdeal.Frame
import proofs.«174680_j81793357185247_2_alg».proof.Proof.KernelBody
import Idealize.ShloMosaic.Lib.Pipeline.Value

set_option maxRecDepth 16384

noncomputable section

open scoped BigOperators

namespace Cert.KernelIdeal.Arrays

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first region -/

/-- The printed index maps over the grid: the three row-blocked inputs and the output are at block (t, 0), the weights
    and the bias at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first region's output array after the region, as one function of the arrays the region finds. -/
def arr0 (c : Dev nD) : S50000x256.Idx → EReal := fun i =>
  max (fusedAt (by norm_num : 128 + 128 = 256) (V c main_v18 : Mat 50000 128) (V c main_arg0 : Mat 50000 128)
    (V c main_v8 : Mat 50000 1) (V c main_v19 : Mat 256 256) (V c main_v20 : Mat 1 256) (i 0) (i 1))
    (Ideal.ofBits .f32 0x00000000#32)

/-- What point t writes back is block t of `arr0`. -/
theorem flushed0_eq (c : Dev nD) (t : Fin cfg0.N) :
    (dat0 V c).flushed 5 t = ((cfg0.win 5).blk t).view.read (Elt Ideal) (arr0 V c) := by
  obtain ⟨a0, a1, b0, b1, c0, c1, d0, d1, e0, e1, f0, f1⟩ := idx0 t
  show (cfg0.win 5).cut (grid0.coords t) ((dat0 V c).after 5 t) = _
  rw [after0_5]
  unfold out0_5
  rw [View.canon_unit_zero hz]
  simp only [View.ld_unit_zero (S := S2000x1) hz, View.ld_unit_zero (S := S2000x128) hz,
    View.ld_unit_zero (S := S256x256) hz, View.ld_unit_zero (S := S1x256) hz]
  funext j
  show k0_pay1 (F := Ideal) (iblk0 V c 2 t) (iblk0 V c 0 t) (iblk0 V c 1 t) (iblk0 V c 3 t) (iblk0 V c 4 t) j
    = arr0 V c (((cfg0.win 5).blk t).view.emb j)
  unfold arr0
  refine Cert.KernelIdeal.Body.blockval0 (V c main_v18) (V c main_arg0) (V c main_v8) (V c main_v19) (V c main_v20)
    (iblk0 V c 2 t) (iblk0 V c 0 t) (iblk0 V c 1 t) (iblk0 V c 3 t) (iblk0 V c 4 t) (2000 * t.val)
    ?_ ?_ ?_ ?_ ?_ j _ _ ?_ ?_
  · intro p k P hP
    unfold iblk0
    rw [View.read_apply]
    show V c main_v18 (((cfg0.win 0).blk t).view.emb (ix2 p k)) = V c main_v18 (ix2 P k)
    refine congrArg (V c main_v18) (funext fun a => Fin.ext ?_)
    match a with
    | ⟨0, _⟩ => show win0_0.index t (0 : Fin 2) * 2000 + 1 * p.val = P.val; rw [a0, hP]; omega
    | ⟨1, _⟩ => show win0_0.index t (1 : Fin 2) * 128 + 1 * k.val = k.val; rw [a1]; omega
  · intro p k P hP
    unfold iblk0
    rw [View.read_apply]
    show V c main_arg0 (((cfg0.win 1).blk t).view.emb (ix2 p k)) = V c main_arg0 (ix2 P k)
    refine congrArg (V c main_arg0) (funext fun a => Fin.ext ?_)
    match a with
    | ⟨0, _⟩ => show win0_1.index t (0 : Fin 2) * 2000 + 1 * p.val = P.val; rw [b0, hP]; omega
    | ⟨1, _⟩ => show win0_1.index t (1 : Fin 2) * 128 + 1 * k.val = k.val; rw [b1]; omega
  · intro p P hP
    unfold iblk0
    rw [View.read_apply]
    show V c main_v8 (((cfg0.win 2).blk t).view.emb (ix2 p (0 : Fin 1))) = V c main_v8 (ix2 P (0 : Fin 1))
    refine congrArg (V c main_v8) (funext fun a => Fin.ext ?_)
    match a with
    | ⟨0, _⟩ => show win0_2.index t (0 : Fin 2) * 2000 + 1 * p.val = P.val; rw [c0, hP]; omega
    | ⟨1, _⟩ => show win0_2.index t (1 : Fin 2) * 1 + 1 * 0 = 0; rw [c1]
  · unfold iblk0
    funext y
    rw [View.read_apply]
    show V c main_v19 (((cfg0.win 3).blk t).view.emb y) = V c main_v19 y
    refine congrArg (V c main_v19) (funext fun a => Fin.ext ?_)
    match a with
    | ⟨0, _⟩ => show win0_3.index t (0 : Fin 2) * 256 + 1 * (y 0).val = (y 0).val; rw [d0]; omega
    | ⟨1, _⟩ => show win0_3.index t (1 : Fin 2) * 256 + 1 * (y 1).val = (y 1).val; rw [d1]; omega
  · unfold iblk0
    funext y
    rw [View.read_apply]
    show V c main_v20 (((cfg0.win 4).blk t).view.emb y) = V c main_v20 y
    refine congrArg (V c main_v20) (funext fun a => Fin.ext ?_)
    match a with
    | ⟨0, _⟩ => show win0_4.index t (0 : Fin 2) * 1 + 1 * (y 0).val = (y 0).val; rw [e0]; omega
    | ⟨1, _⟩ => show win0_4.index t (1 : Fin 2) * 256 + 1 * (y 1).val = (y 1).val; rw [e1]; omega
  · show win0_5.index t (0 : Fin 2) * 2000 + 1 * (j 0).val = 2000 * t.val + (j 0).val
    rw [f0]; omega
  · show win0_5.index t (1 : Fin 2) * 256 + 1 * (j 1).val = (j 1).val
    rw [f1]; omega

/-- An index of the output array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v21).slice (win0_5.rect t)).set ↔ _
  rw [View.set_slice_whole, Rect.mem_set_unit]
  exact Iff.rfl

/-- Row r of the output array is in the block of point r / 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 2000 < cfg0.N := by show _ < grid0.N; rw [N_0]; omega
  obtain ⟨-, -, -, -, -, -, -, -, -, -, f0, f1⟩ := idx0 ⟨(i 0).val / 2000, hN⟩
  refine ⟨⟨(i 0).val / 2000, hN⟩, flush0_5 _, ?_⟩
  rw [mem_blk0]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [f0]; show (i 0).val / 2000 * 2000 ≤ (i 0).val ∧ (i 0).val < (i 0).val / 2000 * 2000 + 2000; omega
  | ⟨1, _⟩ =>
    show win0_5.index ⟨(i 0).val / 2000, hN⟩ (1 : Fin 2) * 256 ≤ (i 1).val
      ∧ (i 1).val < win0_5.index ⟨(i 0).val / 2000, hN⟩ (1 : Fin 2) * 256 + 256
    rw [f1]; omega

/-- After the first region its output array is `arr0` of the arrays the region found. -/
theorem final0 (c : Dev nD) : (dat0 V c).arrAt 5 cfg0.N = arr0 V c :=
  (dat0 V c).arrAt_eq_of_cover 5 (arr0 V c) (fun t _ => flushed0_eq V c t) (cover0)

/-! ## The second region -/

/-- The printed index maps over the grid, as for the first region. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The second region's output array after the region, as one function of the arrays the region finds. -/
def arr1 (c : Dev nD) : S50000x64.Idx → EReal := fun i =>
  fusedAt (by norm_num : 256 + 256 = 512) (V c main_v32 : Mat 50000 256) (V c main_v21 : Mat 50000 256)
    (V c main_v8 : Mat 50000 1) (V c main_v33 : Mat 512 64) (V c main_v34 : Mat 1 64) (i 0) (i 1)

/-- What point t writes back is block t of `arr1`. -/
theorem flushed1_eq (c : Dev nD) (t : Fin cfg1.N) :
    (dat1 V c).flushed 5 t = ((cfg1.win 5).blk t).view.read (Elt Ideal) (arr1 V c) := by
  obtain ⟨a0, a1, b0, b1, c0, c1, d0, d1, e0, e1, f0, f1⟩ := idx1 t
  show (cfg1.win 5).cut (grid1.coords t) ((dat1 V c).after 5 t) = _
  rw [after1_5]
  unfold out1_5
  rw [View.canon_unit_zero hz]
  simp only [View.ld_unit_zero (S := S2000x1) hz, View.ld_unit_zero (S := S2000x256) hz,
    View.ld_unit_zero (S := S512x64) hz, View.ld_unit_zero (S := S1x64) hz]
  funext j
  show k1_pay1 (F := Ideal) (iblk1 V c 2 t) (iblk1 V c 0 t) (iblk1 V c 1 t) (iblk1 V c 3 t) (iblk1 V c 4 t) j
    = arr1 V c (((cfg1.win 5).blk t).view.emb j)
  unfold arr1
  refine Cert.KernelIdeal.Body.blockval1 (V c main_v32) (V c main_v21) (V c main_v8) (V c main_v33) (V c main_v34)
    (iblk1 V c 2 t) (iblk1 V c 0 t) (iblk1 V c 1 t) (iblk1 V c 3 t) (iblk1 V c 4 t) (2000 * t.val)
    ?_ ?_ ?_ ?_ ?_ j _ _ ?_ ?_
  · intro p k P hP
    unfold iblk1
    rw [View.read_apply]
    show V c main_v32 (((cfg1.win 0).blk t).view.emb (ix2 p k)) = V c main_v32 (ix2 P k)
    refine congrArg (V c main_v32) (funext fun a => Fin.ext ?_)
    match a with
    | ⟨0, _⟩ => show win1_0.index t (0 : Fin 2) * 2000 + 1 * p.val = P.val; rw [a0, hP]; omega
    | ⟨1, _⟩ => show win1_0.index t (1 : Fin 2) * 256 + 1 * k.val = k.val; rw [a1]; omega
  · intro p k P hP
    unfold iblk1
    rw [View.read_apply]
    show V c main_v21 (((cfg1.win 1).blk t).view.emb (ix2 p k)) = V c main_v21 (ix2 P k)
    refine congrArg (V c main_v21) (funext fun a => Fin.ext ?_)
    match a with
    | ⟨0, _⟩ => show win1_1.index t (0 : Fin 2) * 2000 + 1 * p.val = P.val; rw [b0, hP]; omega
    | ⟨1, _⟩ => show win1_1.index t (1 : Fin 2) * 256 + 1 * k.val = k.val; rw [b1]; omega
  · intro p P hP
    unfold iblk1
    rw [View.read_apply]
    show V c main_v8 (((cfg1.win 2).blk t).view.emb (ix2 p (0 : Fin 1))) = V c main_v8 (ix2 P (0 : Fin 1))
    refine congrArg (V c main_v8) (funext fun a => Fin.ext ?_)
    match a with
    | ⟨0, _⟩ => show win1_2.index t (0 : Fin 2) * 2000 + 1 * p.val = P.val; rw [c0, hP]; omega
    | ⟨1, _⟩ => show win1_2.index t (1 : Fin 2) * 1 + 1 * 0 = 0; rw [c1]
  · unfold iblk1
    funext y
    rw [View.read_apply]
    show V c main_v33 (((cfg1.win 3).blk t).view.emb y) = V c main_v33 y
    refine congrArg (V c main_v33) (funext fun a => Fin.ext ?_)
    match a with
    | ⟨0, _⟩ => show win1_3.index t (0 : Fin 2) * 512 + 1 * (y 0).val = (y 0).val; rw [d0]; omega
    | ⟨1, _⟩ => show win1_3.index t (1 : Fin 2) * 64 + 1 * (y 1).val = (y 1).val; rw [d1]; omega
  · unfold iblk1
    funext y
    rw [View.read_apply]
    show V c main_v34 (((cfg1.win 4).blk t).view.emb y) = V c main_v34 y
    refine congrArg (V c main_v34) (funext fun a => Fin.ext ?_)
    match a with
    | ⟨0, _⟩ => show win1_4.index t (0 : Fin 2) * 1 + 1 * (y 0).val = (y 0).val; rw [e0]; omega
    | ⟨1, _⟩ => show win1_4.index t (1 : Fin 2) * 64 + 1 * (y 1).val = (y 1).val; rw [e1]; omega
  · show win1_5.index t (0 : Fin 2) * 2000 + 1 * (j 0).val = 2000 * t.val + (j 0).val
    rw [f0]; omega
  · show win1_5.index t (1 : Fin 2) * 64 + 1 * (j 1).val = (j 1).val
    rw [f1]; omega

/-- An index of the output array is in point t's block iff each coordinate is in the block's range on its axis. -/
theorem mem_blk1 (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v35).slice (win1_5.rect t)).set ↔ _
  rw [View.set_slice_whole, Rect.mem_set_unit]
  exact Iff.rfl

/-- Row r of the output array is in the block of point r / 2000. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 2000 < cfg1.N := by show _ < grid1.N; rw [N_1]; omega
  obtain ⟨-, -, -, -, -, -, -, -, -, -, f0, f1⟩ := idx1 ⟨(i 0).val / 2000, hN⟩
  refine ⟨⟨(i 0).val / 2000, hN⟩, flush1_5 _, ?_⟩
  rw [mem_blk1]
  intro a
  match a with
  | ⟨0, _⟩ =>
    show win1_5.index ⟨(i 0).val / 2000, hN⟩ (0 : Fin 2) * 2000 ≤ (i 0).val
      ∧ (i 0).val < win1_5.index ⟨(i 0).val / 2000, hN⟩ (0 : Fin 2) * 2000 + 2000
    rw [f0]; show (i 0).val / 2000 * 2000 ≤ (i 0).val ∧ (i 0).val < (i 0).val / 2000 * 2000 + 2000; omega
  | ⟨1, _⟩ =>
    show win1_5.index ⟨(i 0).val / 2000, hN⟩ (1 : Fin 2) * 64 ≤ (i 1).val
      ∧ (i 1).val < win1_5.index ⟨(i 0).val / 2000, hN⟩ (1 : Fin 2) * 64 + 64
    rw [f1]; omega

/-- After the second region its output array is `arr1` of the arrays the region found. -/
theorem final1 (c : Dev nD) : (dat1 V c).arrAt 5 cfg1.N = arr1 V c :=
  (dat1 V c).arrAt_eq_of_cover 5 (arr1 V c) (fun t _ => flushed1_eq V c t) (cover1)

end Cert.KernelIdeal.Arrays

end
-- ==== Proof.RefStages.lean ====
/-
  The reference, layer by layer, is the layer function of SageSpec.

  Read at entry (p, q), the reference's first layer (before the cut-off at 0) is
      Σ_k (S(p,k) / max(cnt(p), 1)) · W1l(k, q) + Σ_k x(p,k) · W1r(k, q) + b1(q)
  with S the scatter-added gathered rows of x and cnt the scatter-added ones: the division is entrywise by a column
  broadcast of max(cnt, 1), the two matrix products are sums over the contracted axis, the bias is broadcast along the
  rows.  The second layer is the same function of the first layer's output h, of the sums of h's gathered rows, and of
  the second layer's weights.  The gather and the scatter-add are left as they are printed: both programs apply the
  same ones.
-/
import proofs.«174680_j81793357185247_2_alg».proof.Proof.Gen.ReferenceIdeal.Read
import proofs.«174680_j81793357185247_2_alg».proof.Proof.SageSpec

noncomputable section

open scoped BigOperators

namespace Cert.ReferenceIdeal.Stages

open Cert.ReferenceIdeal Cert.ReferenceIdeal.Read Cert.Sage
open Idealize.ShloMosaic Idealize.ShloMosaic.ValueIdx

/-- The divisor of the first layer's means, read at (p, k): max(cnt(p), 1). -/
theorem den1_apply (x1 : (⟨S2x600000, .i32⟩ : BufTy).Contents (Elt Ideal)) (p : Fin 50000) (k : Fin 128) :
    val_main_v21 (F := Ideal) x1 (ix2 p k)
      = max (val_main_v17 (F := Ideal) x1 (ix1 p)) (Ideal.ofBits .f32 0x3F800000#32) := by
  rw [val_main_v21_apply, val_main_v20_apply, val_main_v19_apply, val_main_v18_apply, val_main_cst_3_apply]
  have e : idx_main_v20 (idx_main_v21 (ix2 p k)) = ix1 p := funext fun a => Fin.ext (by
    match a with
    | ⟨0, _⟩ => rfl)
  rw [e]
  rfl

/-- The first layer's output h (after the cut-off at 0) is the layer function of x, of the sums of x's gathered rows and
    of the counts. -/
theorem h_eq (x0 : (⟨S50000x128, .f32⟩ : BufTy).Contents (Elt Ideal)) (x1 : (⟨S2x600000, .i32⟩ : BufTy).Contents (Elt Ideal))
    (x2 x3 : (⟨S128x256, .f32⟩ : BufTy).Contents (Elt Ideal)) (x4 : (⟨S256, .f32⟩ : BufTy).Contents (Elt Ideal)) :
    val_main_v29 (F := Ideal) x0 x1 x2 x3 x4
      = fun i => max (sageAt (val_main_v13 (F := Ideal) x0 x1) x0 (val_main_v17 (F := Ideal) x1) x2 x3 x4 (i 0) (i 1))
          (Ideal.ofBits .f32 0x00000000#32) := by
  funext i
  obtain ⟨p, q, rfl⟩ : ∃ (p : Fin 50000) (q : Fin 256), i = ix2 p q := ⟨i 0, i 1, eq_ix2 i⟩
  show _ = max (sageAt (val_main_v13 (F := Ideal) x0 x1) x0 (val_main_v17 (F := Ideal) x1) x2 x3 x4 p q)
    (Ideal.ofBits .f32 0x00000000#32)
  unfold sageAt
  rw [val_main_v29_apply, val_main_v28_apply, val_main_v25_apply, val_main_v23_apply, val_main_v24_apply,
    val_main_v27_apply, val_main_v26_apply, val_main_call0_v0_apply, val_main_call0_cst_apply]
  have el : ∀ k : Fin 128, lidx_main_v23 (ix2 p q) k = ix2 p k := fun k => funext fun a => Fin.ext (by
    match a with
    | ⟨0, _⟩ => rfl
    | ⟨1, _⟩ => rfl)
  have er : ∀ k : Fin 128, ridx_main_v23 (ix2 p q) k = ix2 k q := fun k => funext fun a => Fin.ext (by
    match a with
    | ⟨0, _⟩ => rfl
    | ⟨1, _⟩ => rfl)
  have el' : ∀ k : Fin 128, lidx_main_v24 (ix2 p q) k = ix2 p k := fun k => funext fun a => Fin.ext (by
    match a with
    | ⟨0, _⟩ => rfl
    | ⟨1, _⟩ => rfl)
  have er' : ∀ k : Fin 128, ridx_main_v24 (ix2 p q) k = ix2 k q := fun k => funext fun a => Fin.ext (by
    match a with
    | ⟨0, _⟩ => rfl
    | ⟨1, _⟩ => rfl)
  have eb : idx_main_v26 (idx_main_v27 (ix2 p q)) = ix1 q := funext fun a => Fin.ext (by
    match a with
    | ⟨0, _⟩ => rfl)
  simp only [el, er, el', er', eb, val_main_v22_apply, den1_apply]
  rfl

/-- The divisor of the second layer's means, read at (p, k): max(cnt(p), 1). -/
theorem den2_apply (x1 : (⟨S2x600000, .i32⟩ : BufTy).Contents (Elt Ideal)) (p : Fin 50000) (k : Fin 256) :
    val_main_v51 (F := Ideal) x1 (ix2 p k)
      = max (val_main_v47 (F := Ideal) x1 (ix1 p)) (Ideal.ofBits .f32 0x3F800000#32) := by
  rw [val_main_v51_apply, val_main_v50_apply, val_main_v49_apply, val_main_v48_apply, val_main_cst_9_apply]
  have e : idx_main_v50 (idx_main_v51 (ix2 p k)) = ix1 p := funext fun a => Fin.ext (by
    match a with
    | ⟨0, _⟩ => rfl)
  rw [e]
  rfl

/-- The reference's result is the layer function of h, of the sums of h's gathered rows and of the counts. -/
theorem out_eq (x0 : (⟨S50000x128, .f32⟩ : BufTy).Contents (Elt Ideal)) (x1 : (⟨S2x600000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x64, .f32⟩ : BufTy).Contents (Elt Ideal)) (x7 : (⟨S64, .f32⟩ : BufTy).Contents (Elt Ideal)) :
    val_main_v58 (F := Ideal) x0 x1 x2 x3 x4 x5 x6 x7
      = fun i => sageAt (val_main_v43 (F := Ideal) x0 x1 x2 x3 x4) (val_main_v29 (F := Ideal) x0 x1 x2 x3 x4)
          (val_main_v47 (F := Ideal) x1) x5 x6 x7 (i 0) (i 1) := by
  funext i
  obtain ⟨p, q, rfl⟩ : ∃ (p : Fin 50000) (q : Fin 64), i = ix2 p q := ⟨i 0, i 1, eq_ix2 i⟩
  show _ = sageAt (val_main_v43 (F := Ideal) x0 x1 x2 x3 x4) (val_main_v29 (F := Ideal) x0 x1 x2 x3 x4)
    (val_main_v47 (F := Ideal) x1) x5 x6 x7 p q
  unfold sageAt
  rw [val_main_v58_apply, val_main_v55_apply, val_main_v53_apply, val_main_v54_apply, val_main_v57_apply,
    val_main_v56_apply]
  have el : ∀ k : Fin 256, lidx_main_v53 (ix2 p q) k = ix2 p k := fun k => funext fun a => Fin.ext (by
    match a with
    | ⟨0, _⟩ => rfl
    | ⟨1, _⟩ => rfl)
  have er : ∀ k : Fin 256, ridx_main_v53 (ix2 p q) k = ix2 k q := fun k => funext fun a => Fin.ext (by
    match a with
    | ⟨0, _⟩ => rfl
    | ⟨1, _⟩ => rfl)
  have el' : ∀ k : Fin 256, lidx_main_v54 (ix2 p q) k = ix2 p k := fun k => funext fun a => Fin.ext (by
    match a with
    | ⟨0, _⟩ => rfl
    | ⟨1, _⟩ => rfl)
  have er' : ∀ k : Fin 256, ridx_main_v54 (ix2 p q) k = ix2 k q := fun k => funext fun a => Fin.ext (by
    match a with
    | ⟨0, _⟩ => rfl
    | ⟨1, _⟩ => rfl)
  have eb : idx_main_v56 (idx_main_v57 (ix2 p q)) = ix1 q := funext fun a => Fin.ext (by
    match a with
    | ⟨0, _⟩ => rfl)
  simp only [el, er, el', er', eb, val_main_v52_apply, den2_apply]
  rfl

end Cert.ReferenceIdeal.Stages

end
-- ==== Proof.HostBridge.lean ====
import proofs.«174680_j81793357185247_2_alg».proof.Proof.Gen.KernelIdeal.Frame
import proofs.«174680_j81793357185247_2_alg».proof.Proof.Gen.ReferenceIdeal.Read
import proofs.«174680_j81793357185247_2_alg».proof.Proof.KernelArrays
import proofs.«174680_j81793357185247_2_alg».proof.Proof.RefStages
import Idealize.ShloMosaic.Lib.StableHlo.Run
import Idealize.ShloMosaic.PureOps.Ideal
import Idealize.ShloMosaic.PureOps.Ideal.Laws

set_option maxRecDepth 16384

noncomputable section

/-!
  The kernel program's host stretches, stage by stage, against the reference's stages.

  The kernel program's host operations are the reference's own: the source and destination rows of the edge list, the
  wrap of negative source indices, the gather of the rows, the scatter-add of the gathered rows and of the ones.  So
  every buffer a region reads holds, when the region is entered, a stage of the reference or a re-laying of an
  argument: the neighbour sums are the reference's scatter-add, the count column is the reference's count laid as a
  column, the stacked weights are the two weight arguments concatenated, the bias row is the bias argument reshaped.
  With the block-to-array results this gives: after the first region its output is the reference's first layer h, and
  after the second region the result array is the reference's result.
-/

namespace Cert.HostBridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.Sage Cert.KernelIdeal.Arrays
open Idealize.ShloMosaic.ValueIdx

/-! ## The first stretch: what the first region finds -/

set_option maxHeartbeats 4000000 in
/-- The neighbour sums the first region finds are the reference's scatter-add of x's gathered rows. -/
theorem v18_eq (c : Dev nD) : V1 m ρ c main_v18
    = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v18) = _
  after_results_simp
  rfl

set_option maxHeartbeats 4000000 in
/-- The count column the regions find is the reference's count laid as a column. -/
theorem v8_eq (c : Dev nD) : V1 m ρ c main_v8
    = broadcastInDim S50000x1 ![0] bcast_S50000_S50000x1_0
        (Cert.ReferenceIdeal.Read.val_main_v17 (F := Ideal) (m ((c.tc : Thread nD τ).loc main_arg1))) := by
  show StableHlo.after hostOps0 (W0 m ρ c) (Proc.devRef .tc main_v8) = _
  after_results_simp
  rfl

set_option maxHeartbeats 4000000 in
/-- The first layer's stacked weights: the neighbour weights above the root weights. -/
theorem v19_eq (c : Dev nD) : V1 m ρ c main_v19
    = concatenate S256x256 0 [⟨S128x256, m ((c.tc : Thread nD τ).loc main_arg2)⟩, ⟨S128x256, m ((c.tc : Thread nD τ).loc main_arg3)⟩]
        concatenates_S128x256_S128x256_S256x256_d0 := by
  show StableHlo.after hostOps0 (W0 m ρ c) (Proc.devRef .tc main_v19) = _
  after_results_simp
  rfl

set_option maxHeartbeats 4000000 in
/-- The first layer's bias as a row. -/
theorem v20_eq (c : Dev nD) : V1 m ρ c main_v20
    = shapeCast S1x256 (m ((c.tc : Thread nD τ).loc main_arg4)) shapeCasts_S256_S1x256 := by
  show StableHlo.after hostOps0 (W0 m ρ c) (Proc.devRef .tc main_v20) = _
  after_results_simp
  rfl

set_option maxHeartbeats 4000000 in
/-- The features the first region finds are the argument. -/
theorem arg0_eq (c : Dev nD) : V1 m ρ c main_arg0 = m ((c.tc : Thread nD τ).loc main_arg0) := by
  show StableHlo.after hostOps0 (W0 m ρ c) (Proc.devRef .tc main_arg0) = _
  after_results_simp <;> rfl

/-- After the first region its output array is the reference's first layer h. -/
theorem h_kernel (c : Dev nD) : W2 m ρ c (Proc.devRef .tc main_v21)
    = Cert.ReferenceIdeal.Read.val_main_v29 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 5).trans ((final0 (V1 m ρ) c).trans ?_)
  rw [Cert.ReferenceIdeal.Stages.h_eq]
  unfold arr0
  rw [v18_eq, v8_eq, v19_eq, v20_eq, arg0_eq]
  funext i
  exact congrArg (max · (Ideal.ofBits .f32 0x00000000#32))
    (fusedAt_eq (by norm_num : 128 + 128 = 256) _ _ _ _ _ _ bcast_S50000_S50000x1_0
      concatenates_S128x256_S128x256_S256x256_d0 shapeCasts_S256_S1x256 (i 0) (i 1))

/-! ## Between the regions: what the first region leaves where the second stretch reads -/

set_option maxHeartbeats 4000000 in
/-- The source rows, untouched by the first region. -/
theorem w1_eq (c : Dev nD) : W2 m ρ c (Proc.devRef .tc main_v1)
    = Cert.ReferenceIdeal.Read.val_main_v31 (F := Ideal) (m ((c.tc : Thread nD τ).loc main_arg1)) := by
  refine (W2_of_ne m ρ c main_v1 (by decide)).trans ?_
  show StableHlo.after hostOps0 (W0 m ρ c) (Proc.devRef .tc main_v1) = _
  after_results_simp
  rfl

set_option maxHeartbeats 4000000 in
/-- The destination rows, untouched by the first region. -/
theorem w3_eq (c : Dev nD) : W2 m ρ c (Proc.devRef .tc main_v3)
    = Cert.ReferenceIdeal.Read.val_main_v33 (F := Ideal) (m ((c.tc : Thread nD τ).loc main_arg1)) := by
  refine (W2_of_ne m ρ c main_v3 (by decide)).trans ?_
  show StableHlo.after hostOps0 (W0 m ρ c) (Proc.devRef .tc main_v3) = _
  after_results_simp
  rfl

/-- The count column is an input of the first region: it leaves it as it found it. -/
theorem w8_eq (c : Dev nD) : W2 m ρ c (Proc.devRef .tc main_v8) = V1 m ρ c main_v8 :=
  (W2_arr m ρ c 2).trans (((dat0 (V1 m ρ) c).arrAt_in 2 rfl _).trans (A_eq0 (V1 m ρ) c 2))

set_option maxHeartbeats 4000000 in
theorem warg5_eq (c : Dev nD) : W2 m ρ c (Proc.devRef .tc main_arg5) = (m ((c.tc : Thread nD τ).loc main_arg5)) := by
  refine (W2_of_ne m ρ c main_arg5 (by decide)).trans ?_
  show StableHlo.after hostOps0 (W0 m ρ c) (Proc.devRef .tc main_arg5) = _
  after_results_simp <;> rfl

set_option maxHeartbeats 4000000 in
theorem warg6_eq (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results_simp <;> rfl

set_option maxHeartbeats 4000000 in
theorem warg7_eq (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results_simp <;> rfl

/-! ## The second stretch: what the second region finds -/

set_option maxHeartbeats 4000000 in
/-- The neighbour sums the second region finds are the reference's scatter-add of h's gathered rows (the change of
    float format between the gather and the scatter-add is the identity). -/
theorem v32_eq (c : Dev nD) : V3 m ρ c main_v32
    = Cert.ReferenceIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v32) = _
  after_results_simp
  rw [w1_eq, w3_eq, h_kernel]
  rfl

set_option maxHeartbeats 4000000 in
/-- The second stretch does not write h. -/
theorem v21_eq (c : Dev nD) : V3 m ρ c main_v21 = W2 m ρ c (Proc.devRef .tc main_v21) := by
  show StableHlo.after hostOps1 (W2 m ρ c) (Proc.devRef .tc main_v21) = _
  after_results_simp <;> rfl

set_option maxHeartbeats 4000000 in
/-- The second stretch does not write the count column. -/
theorem v8'_eq (c : Dev nD) : V3 m ρ c main_v8 = W2 m ρ c (Proc.devRef .tc main_v8) := by
  show StableHlo.after hostOps1 (W2 m ρ c) (Proc.devRef .tc main_v8) = _
  after_results_simp <;> rfl

set_option maxHeartbeats 4000000 in
/-- The second layer's stacked weights. -/
theorem v33_eq (c : Dev nD) : V3 m ρ c main_v33
    = concatenate S512x64 0 [⟨S256x64, (m ((c.tc : Thread nD τ).loc main_arg5))⟩, ⟨S256x64, (m ((c.tc : Thread nD τ).loc main_arg6))⟩] concatenates_S256x64_S256x64_S512x64_d0 := by
  have e : V3 m ρ c main_v33 = concatenate S512x64 0 [⟨S256x64, W2 m ρ c (Proc.devRef .tc main_arg5)⟩,
      ⟨S256x64, W2 m ρ c (Proc.devRef .tc main_arg6)⟩] concatenates_S256x64_S256x64_S512x64_d0 := by
    show StableHlo.after hostOps1 (W2 m ρ c) (Proc.devRef .tc main_v33) = _
    after_results_simp
    rfl
  rw [e, warg5_eq, warg6_eq]

set_option maxHeartbeats 4000000 in
/-- The second layer's bias as a row. -/
theorem v34_eq (c : Dev nD) : V3 m ρ c main_v34 = shapeCast S1x64 (m ((c.tc : Thread nD τ).loc main_arg7)) shapeCasts_S64_S1x64 := by
  have e : V3 m ρ c main_v34 = shapeCast S1x64 (W2 m ρ c (Proc.devRef .tc main_arg7)) shapeCasts_S64_S1x64 := by
    show StableHlo.after hostOps1 (W2 m ρ c) (Proc.devRef .tc main_v34) = _
    after_results_simp
    rfl
  rw [e, warg7_eq]

/-! ## The result -/

/-- The reference computes the neighbour counts twice, from the same operations. -/
theorem cnt_twice (x1 : (⟨Cert.ReferenceIdeal.S2x600000, .i32⟩ : BufTy).Contents (Elt Ideal)) :
    Cert.ReferenceIdeal.Read.val_main_v17 (F := Ideal) x1 = Cert.ReferenceIdeal.Read.val_main_v47 (F := Ideal) x1 := rfl

/-- After the second region the result array holds the reference's result. -/
theorem result_eq (c : Dev nD) : W4 m ρ c (Proc.devRef .tc main_v35)
    = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ((final1 (V3 m ρ) c).trans ?_)
  rw [Cert.ReferenceIdeal.Stages.out_eq]
  unfold arr1
  rw [v32_eq, v21_eq, h_kernel, v8'_eq, w8_eq, v8_eq, v33_eq, v34_eq, cnt_twice]
  funext i
  exact fusedAt_eq (by norm_num : 256 + 256 = 512) _ _ _ _ _ _ bcast_S50000_S50000x1_0
    concatenates_S256x64_S256x64_S512x64_d0 shapeCasts_S64_S1x64 (i 0) (i 1)

end Cert.HostBridge

end
-- ==== Proof.lean ====
/-
  A two-layer neighbourhood-averaging network on 50000 nodes and 600000 edges: the kernel program against its
  plain reference, on the extended reals.

  Both programs gather the source rows of the features along the edges, add them up per destination node, count the
  edges per destination node, and apply two dense layers
      out(p, q) = Σ_k (S(p,k) / max(cnt(p), 1)) · Wl(k, q) + Σ_k X(p,k) · Wr(k, q) + b(q),
  the first followed by a cut-off at 0.  The reference computes the two sums of a layer as two matrix products and adds
  them.  The kernel program runs each layer as a grid of 25 row blocks of 2000 nodes; a block divides its rows of S by
  max(cnt, 1), lays them beside its rows of X, and multiplies ONCE by the two weight matrices stacked.  The two are
  equal entry by entry because a sum over 2K positions is the sum over its first K plus the sum over its last K
  positions; a change of float format is the identity at the extended reals.  No law used needs an entry to be
  finite, so the precondition is never opened.

  The modules: SageSpec (the layer, its fused form, their equality), KernelBody (a block's stored value at an entry),
  KernelArrays (from the 25 blocks to the whole output array of each region), KernelRun (the program's run with the
  result array named), RefStages (the reference read layer by layer), HostBridge (the kernel program's host stages
  are the reference's, hence each region's output is the reference's layer).  Here: the five claims.
-/
import proofs.«174680_j81793357185247_2_alg».proof.Defs
import proofs.«174680_j81793357185247_2_alg».proof.Proof.Gen.Kernel
import proofs.«174680_j81793357185247_2_alg».proof.Proof.Gen.Kernel.Skeleton
import proofs.«174680_j81793357185247_2_alg».proof.Proof.Gen.Kernel.Launch
import proofs.«174680_j81793357185247_2_alg».proof.Proof.Gen.Kernel.Points
import proofs.«174680_j81793357185247_2_alg».proof.Proof.Gen.Kernel.Frame
import proofs.«174680_j81793357185247_2_alg».proof.Proof.Gen.KernelIdeal
import proofs.«174680_j81793357185247_2_alg».proof.Proof.Gen.KernelIdeal.Skeleton
import proofs.«174680_j81793357185247_2_alg».proof.Proof.Gen.KernelIdeal.Launch
import proofs.«174680_j81793357185247_2_alg».proof.Proof.Gen.KernelIdeal.Points
import proofs.«174680_j81793357185247_2_alg».proof.Proof.Gen.KernelIdeal.Frame
import proofs.«174680_j81793357185247_2_alg».proof.Proof.Gen.ReferenceIdeal
import proofs.«174680_j81793357185247_2_alg».proof.Proof.Gen.ReferenceIdeal.Run
import proofs.«174680_j81793357185247_2_alg».proof.Proof.Gen.ReferenceIdeal.Read
import proofs.«174680_j81793357185247_2_alg».proof.Proof.Gen.Pre_finite_inputs
import proofs.«174680_j81793357185247_2_alg».proof.Proof.KernelRun
import proofs.«174680_j81793357185247_2_alg».proof.Proof.HostBridge
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_k : Cert.frame_Kernel := fun m ρ _ => Cert.Kernel.Gen.frame m ρ

/-- The idealized kernel program runs, and leaves its arguments as launched. -/
theorem frame_ki : Cert.frame_KernelIdeal := fun m ρ _ => Cert.KernelIdeal.Gen.frame m ρ

/-- The idealized reference runs, and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both programs run and end with the same result array: the kernel
    program's is what its second region leaves, which is the reference's second layer of the reference's first. -/
theorem algebraic : Cert.algebraic_KernelIdeal_ReferenceIdeal := by
  intro m ρ m' ρ' _ hagree
  refine ⟨fun c => Cert.KernelIdeal.Gen.W4 m ρ c (Proc.devRef .tc Cert.KernelIdeal.main_v35),
    Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.HostBridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
